-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x50x512 : S_.BroadcastsInDim S8x50x512 (![] : Fin 0 → Fin S8x50x512.rank)
  reducesTo_S8x50x512_S_d0_1_2 : S8x50x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x200x512 .f32) (main_arg1 : FVec F S8x50x512 .f32) (main_arg2 : FVec F S1024x512 .f32) (main_arg3 : FVec F S1024 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x50x512 .f32 := Host.absf main_arg1
  let main_cst_0 : FVec F S_ .f32 := constant S_ .f32 0x7F800000#32
  let main_v5 : FVec F S8x50x512 .f32 := broadcastInDim S8x50x512 ![] bcast_S_S8x50x512 main_cst_0
  let main_v6 : IVec S8x50x512 1 := cmpf .olt main_v4 main_v5
  let main_c_1 : IVec S_ 1 := constantI S_ 1 1#1
  let main_v7 : IVec S_ 1 := (fun x v => Host.reduce IntOp.andi x v reducesTo_S8x50x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S8x200x50x1024 : Shape := ⟨4, ![8, 200, 50, 1024]⟩
abbrev S1x40x512 : Shape := ⟨3, ![1, 40, 512]⟩
abbrev S1x50x512 : Shape := ⟨3, ![1, 50, 512]⟩
abbrev S1x40x50x1024 : Shape := ⟨4, ![1, 40, 50, 1024]⟩
abbrev S40x512 : Shape := ⟨2, ![40, 512]⟩
abbrev S50x512 : Shape := ⟨2, ![50, 512]⟩
abbrev S40x1024 : Shape := ⟨2, ![40, 1024]⟩
abbrev S50x1024 : Shape := ⟨2, ![50, 1024]⟩
abbrev S1x1024 : Shape := ⟨2, ![1, 1024]⟩
abbrev S40x1x1024 : Shape := ⟨3, ![40, 1, 1024]⟩
abbrev S1x50x1024 : Shape := ⟨3, ![1, 50, 1024]⟩
abbrev S40x50x1024 : Shape := ⟨3, ![40, 50, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S1024x512, .f32⟩
  | .hbm, ⟨3, _⟩ => ⟨S1024, .f32⟩
  | .hbm, ⟨4, _⟩ => ⟨S8x200x512, .bf16⟩
  | .hbm, ⟨5, _⟩ => ⟨S8x50x512, .bf16⟩
  | .hbm, ⟨6, _⟩ => ⟨S1024x512, .bf16⟩
  | .hbm, ⟨7, _⟩ => ⟨S8x200x50x1024, .f32⟩
  | .local _ .vmem, ⟨0, _⟩ => ⟨S1x40x512, .bf16⟩
  | .local _ .vmem, ⟨1, _⟩ => ⟨S1x40x512, .bf16⟩
  | .local _ .vmem, ⟨2, _⟩ => ⟨S1x50x512, .bf16⟩
  | .local _ .vmem, ⟨3, _⟩ => ⟨S1x50x512, .bf16⟩
  | .local _ .vmem, ⟨4, _⟩ => ⟨S1024x512, .bf16⟩
  | .local _ .vmem, ⟨5, _⟩ => ⟨S1024, .f32⟩
  | .local _ .vmem, ⟨6, _⟩ => ⟨S1x40x50x1024, .f32⟩
  | .local _ .vmem, ⟨7, _⟩ => ⟨S1x40x50x1024, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x50x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x40x50x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x40x512_S1x40x512_0_0_0 : ∀ a, (![0, 0, 0] : Fin 3 → Nat) a + S1x40x512.size a ≤ S1x40x512.size a
  h_S1x40x512 : 0 < S1x40x512.numel
  shapeCasts_S1x40x512_S40x512 : S1x40x512.ShapeCasts S40x512
  inb_S1x50x512_S1x50x512_0_0_0 : ∀ a, (![0, 0, 0] : Fin 3 → Nat) a + S1x50x512.size a ≤ S1x50x512.size a
  h_S1x50x512 : 0 < S1x50x512.numel
  shapeCasts_S1x50x512_S50x512 : S1x50x512.ShapeCasts S50x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S50x1024 : S1x1024.Broadcasts S50x1024
  shapeCasts_S40x1024_S40x1x1024 : S40x1024.ShapeCasts S40x1x1024
  shapeCasts_S50x1024_S1x50x1024 : S50x1024.ShapeCasts S1x50x1024
  broadcasts_S40x1x1024_S40x50x1024 : S40x1x1024.Broadcasts S40x50x1024
  broadcasts_S1x50x1024_S40x50x1024 : S1x50x1024.Broadcasts S40x50x1024
  inb_S1x40x50x1024_S1x40x50x1024_0_0_0_0 : ∀ a, (![0, 0, 0, 0] : Fin 4 → Nat) a + S1x40x50x1024.size a ≤ S1x40x50x1024.size a
  h_S1x40x50x1024 : 0 < S1x40x50x1024.numel
  shapeCasts_S1x40x50x1024_S40x50x1024 : S1x40x50x1024.ShapeCasts S40x50x1024
  shapeCasts_S40x50x1024_S1x40x50x1024 : S40x50x1024.ShapeCasts S1x40x50x1024
  dot_S40x512_S1024x512_S40x1024_1_1_0_0_n_n_wf : DotDims.WF S40x512 S1024x512 S40x1024 [1] [1] [0] [0] [] []
  dot_S50x512_S1024x512_S50x1024_1_1_0_0_n_n_wf : DotDims.WF S50x512 S1024x512 S50x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S8x200x512.size a
  hwx0_0 : ∀ i : grid0.Coords, EltTy.bits .bf16 = 32 ∨ (Rect.block (s := S8x200x512) S1x40x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50x512.size a ≤ S8x50x512.size a
  hwx0_1 : ∀ i : grid0.Coords, EltTy.bits .bf16 = 32 ∨ (Rect.block (s := S8x50x512) S1x50x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x40x50x1024.size a ≤ S8x200x50x1024.size a
  hwx0_4 : ∀ i : grid0.Coords, EltTy.bits .f32 = 32 ∨ (Rect.block (s := S8x200x50x1024) S1x40x50x1024.size (cc0_transform_4 i) (hinb0_4 i)).WholeWords (EltTy.packing .f32)

variable [Facts₀]

def dot_S40x512_S1024x512_S40x1024_1_1_0_0_n_n : DotDims S40x512 S1024x512 S40x1024 where
  lhsContracting := [1]
  rhsContracting := [1]
  lhsNonContracting := [0]
  rhsNonContracting := [0]
  lhsBatch := []
  rhsBatch := []
  wf := dot_S40x512_S1024x512_S40x1024_1_1_0_0_n_n_wf
def dot_S50x512_S1024x512_S50x1024_1_1_0_0_n_n : DotDims S50x512 S1024x512 S50x1024 where
  lhsContracting := [1]
  rhsContracting := [1]
  lhsNonContracting := [0]
  rhsNonContracting := [0]
  lhsBatch := []
  rhsBatch := []
  wf := dot_S50x512_S1024x512_S50x1024_1_1_0_0_n_n_wf

abbrev win0_0 : Pipeline.Window sig grid0 :=
  Pipeline.Window.ofSpec (Memref.whole main_v0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x50x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x40x50x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S8x200x1x512 : Shape := ⟨4, ![8, 200, 1, 512]⟩
abbrev S8x1x50x512 : Shape := ⟨4, ![8, 1, 50, 512]⟩
abbrev S8x200x50x512 : Shape := ⟨4, ![8, 200, 50, 512]⟩
abbrev S8x200x50x1024 : Shape := ⟨4, ![8, 200, 50, 1024]⟩
abbrev S1x1x1x1024 : Shape := ⟨4, ![1, 1, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S1024x512, .f32⟩
  | .hbm, ⟨3, _⟩ => ⟨S1024, .f32⟩
  | .hbm, ⟨4, _⟩ => ⟨S8x200x1x512, .f32⟩
  | .hbm, ⟨5, _⟩ => ⟨S8x1x50x512, .f32⟩
  | .hbm, ⟨6, _⟩ => ⟨S8x200x50x512, .f32⟩
  | .hbm, ⟨7, _⟩ => ⟨S8x200x50x512, .f32⟩
  | .hbm, ⟨8, _⟩ => ⟨S8x200x50x512, .f32⟩
  | .hbm, ⟨9, _⟩ => ⟨S8x200x50x1024, .f32⟩
  | .hbm, ⟨10, _⟩ => ⟨S1x1x1x1024, .f32⟩
  | .hbm, ⟨11, _⟩ => ⟨S8x200x50x1024, .f32⟩
  | .hbm, ⟨12, _⟩ => ⟨S8x200x50x1024, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S8x200x512_S8x200x1x512_0_1_3 : S8x200x512.BroadcastsInDim S8x200x1x512 (![0, 1, 3] : Fin 3 → Fin S8x200x1x512.rank)
  bcast_S8x50x512_S8x1x50x512_0_2_3 : S8x50x512.BroadcastsInDim S8x1x50x512 (![0, 2, 3] : Fin 3 → Fin S8x1x50x512.rank)
  bcast_S8x200x1x512_S8x200x50x512_0_1_2_3 : S8x200x1x512.BroadcastsInDim S8x200x50x512 (![0, 1, 2, 3] : Fin 4 → Fin S8x200x50x512.rank)
  bcast_S8x1x50x512_S8x200x50x512_0_1_2_3 : S8x1x50x512.BroadcastsInDim S8x200x50x512 (![0, 1, 2, 3] : Fin 4 → Fin S8x200x50x512.rank)
  bcast_S1024_S1x1x1x1024_3 : S1024.BroadcastsInDim S1x1x1x1024 (![3] : Fin 1 → Fin S1x1x1x1024.rank)
  bcast_S1x1x1x1024_S8x200x50x1024_0_1_2_3 : S1x1x1x1024.BroadcastsInDim S8x200x50x1024 (![0, 1, 2, 3] : Fin 4 → Fin S8x200x50x1024.rank)
  dot_S8x200x50x512_S1024x512_S8x200x50x1024_3_1_012_0_n_n_wf : DotDims.WF S8x200x50x512 S1024x512 S8x200x50x1024 [3] [1] [0, 1, 2] [0] [] []

variable [Facts₀]

def dot_S8x200x50x512_S1024x512_S8x200x50x1024_3_1_012_0_n_n : DotDims S8x200x50x512 S1024x512 S8x200x50x1024 where
  lhsContracting := [3]
  rhsContracting := [1]
  lhsNonContracting := [0, 1, 2]
  rhsNonContracting := [0]
  lhsBatch := []
  rhsBatch := []
  wf := dot_S8x200x50x512_S1024x512_S8x200x50x1024_3_1_012_0_n_n_wf

class Facts : Prop extends Facts₀ where

variable [Facts]
-- ==== Proof.JoinerSpec.lean ====
/-
  The joiner as a function of its four arrays, index by index, on the extended reals.

  For an encoder row `enc[b, t, :]`, a predictor row `pred[b, u, :]`, the weight `W[v, :]` and the bias `bias[v]`:

    projected form   out[b, t, u, v] = (∑ d, enc[b,t,d] · W[v,d]) + ((∑ d, pred[b,u,d] · W[v,d]) + bias[v])
    joined form      out[b, t, u, v] = (∑ d, (enc[b,t,d] + pred[b,u,d]) · W[v,d]) + bias[v]

  The two forms agree when the entries of `enc`, `pred` and `W` are real numbers: the product distributes over the sum of
  two REAL factors term by term, a finite sum of sums splits, and addition of extended reals is associative. (With an
  infinite entry distributivity can fail on the extended reals — (⊤ + ⊥) · w against ⊤ · w + ⊥ · w — so the reals are
  needed; the bias may be any extended real.)
-/
import Idealize.ShloMosaic.PureOps.Ideal
import Idealize.ShloMosaic.Lib.ValueIdx

noncomputable section

namespace Cert.Joiner

open Idealize.ShloMosaic Idealize.ShloMosaic.ValueIdx

/-- Every entry of the array is a real number (neither infinity). -/
def RealValued {ι : Type} (x : ι → EReal) : Prop := ∀ j, ∃ r : ℝ, x j = (r : EReal)

/-- Over real entries, a sum of products with a sum as the left factor splits into the two sums of products. -/
theorem sum_add_mul_of_real {ι : Type} (s : Finset ι) (a p w : ι → EReal)
    (ha : ∀ k, ∃ r : ℝ, a k = (r : EReal)) (hp : ∀ k, ∃ r : ℝ, p k = (r : EReal)) (hw : ∀ k, ∃ r : ℝ, w k = (r : EReal)) :
    ∑ k ∈ s, (a k + p k) * w k = ∑ k ∈ s, a k * w k + ∑ k ∈ s, p k * w k := by
  rw [← Finset.sum_add_distrib]
  refine Finset.sum_congr rfl fun k _ => ?_
  obtain ⟨x, hx⟩ := ha k
  obtain ⟨y, hy⟩ := hp k
  obtain ⟨z, hz⟩ := hw k
  rw [hx, hy, hz, ← EReal.coe_add, ← EReal.coe_mul, ← EReal.coe_mul, ← EReal.coe_mul, ← EReal.coe_add, add_mul]

variable (enc : (⟨3, ![8, 200, 512]⟩ : Shape).Idx → EReal) (pred : (⟨3, ![8, 50, 512]⟩ : Shape).Idx → EReal)
  (W : (⟨2, ![1024, 512]⟩ : Shape).Idx → EReal) (bias : (⟨1, ![1024]⟩ : Shape).Idx → EReal)

/-- Encoder row (b, t) projected on weight row v. -/
def encProj (b : Fin 8) (t : Fin 200) (v : Fin 1024) : EReal := ∑ k : Fin 512, enc (ix3 b t k) * W (ix2 v k)

/-- Predictor row (b, u) projected on weight row v. -/
def predProj (b : Fin 8) (u : Fin 50) (v : Fin 1024) : EReal := ∑ k : Fin 512, pred (ix3 b u k) * W (ix2 v k)

/-- The projected form at (b, t, u, v): the two projections added, the bias counted once with the predictor's. -/
def projectedAt (b : Fin 8) (t : Fin 200) (u : Fin 50) (v : Fin 1024) : EReal :=
  encProj enc W b t v + (predProj pred W b u v + bias (ix1 v))

/-- The joined form at (b, t, u, v): the two rows added, then projected, then the bias. -/
def joinedAt (b : Fin 8) (t : Fin 200) (u : Fin 50) (v : Fin 1024) : EReal :=
  (∑ k : Fin 512, (enc (ix3 b t k) + pred (ix3 b u k)) * W (ix2 v k)) + bias (ix1 v)

/-- The projected form as one array. -/
def projected : (⟨4, ![8, 200, 50, 1024]⟩ : Shape).Idx → EReal :=
  fun i => projectedAt enc pred W bias (i 0) (i 1) (i 2) (i 3)

/-- The joined form as one array. -/
def joined : (⟨4, ![8, 200, 50, 1024]⟩ : Shape).Idx → EReal :=
  fun i => joinedAt enc pred W bias (i 0) (i 1) (i 2) (i 3)

variable {enc pred W}

/-- A linear map of a sum is the sum of its values: over real `enc`, `pred`, `W` the joined form is the projected one. -/
theorem joinedAt_eq_projectedAt (henc : RealValued enc) (hpred : RealValued pred) (hW : RealValued W)
    (b : Fin 8) (t : Fin 200) (u : Fin 50) (v : Fin 1024) :
    joinedAt enc pred W bias b t u v = projectedAt enc pred W bias b t u v := by
  unfold joinedAt projectedAt encProj predProj
  rw [sum_add_mul_of_real Finset.univ _ _ _ (fun k => henc _) (fun k => hpred _) (fun k => hW _), add_assoc]

theorem joined_eq_projected (henc : RealValued enc) (hpred : RealValued pred) (hW : RealValued W) :
    joined enc pred W bias = projected enc pred W bias :=
  funext fun i => joinedAt_eq_projectedAt bias henc hpred hW (i 0) (i 1) (i 2) (i 3)

end Cert.Joiner

end
-- ==== Proof.FiniteInputs.lean ====
/-
  What the precondition says of the four arrays on the extended reals: every entry is a real number.

  The precondition is the conjunction, over the four arrays, of `all (|x| < +∞)`. On the extended reals `|x|` is
  `max x (-x)`, which is `+∞` at both infinities, so `|x| < +∞` holds exactly at the real numbers.
-/
import proofs.«121685_j43542378446962_2_alg».proof.Pre_finite_inputs
import proofs.«121685_j43542378446962_2_alg».proof.Proof.Gen.Pre_finite_inputs
import proofs.«121685_j43542378446962_2_alg».proof.Proof.JoinerSpec
import Idealize.ShloMosaic.PureOps.Ideal
import Idealize.ShloMosaic.Lib.ReduceAll
import Idealize.ShloMosaic.Lib.ValueIdx

noncomputable section

namespace Cert.Joiner

open Idealize.ShloMosaic Idealize.ShloMosaic.ValueIdx

/-- The f32 pattern of `+∞` is the top element. -/
theorem ofBits_inf_f32 : Ideal.ofBits .f32 0x7F800000#32 = ⊤ := by simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | top => simp [Ideal.cmp] at h
  | coe r => exact ⟨r, rfl⟩

instance : Subsingleton (⟨0, ![]⟩ : Shape).Idx := ⟨fun a b => funext fun d => d.elim0⟩

/-- `all (|x| < +∞)` over an array of any shape gives a real number at every index. -/
theorem realValued_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x)
          (broadcastInDim s ![] hb (constant (F := Ideal) ⟨0, ![]⟩ .f32 0x7F800000#32))) init hr hu ix0 = 1#1) :
    RealValued x := fun i =>
  real_of_abs_lt_inf (x i) (Host.reduce_andi_all _ init hr hu ix0 e i)

/-- The precondition gives real entries in the encoder, predictor and weight arrays (and in the bias, not needed). -/
theorem real_of_pre (x0 : FVec Ideal Cert.Pre_finite_inputs.S8x200x512 .f32) (x1 : FVec Ideal Cert.Pre_finite_inputs.S8x50x512 .f32)
    (x2 : FVec Ideal Cert.Pre_finite_inputs.S1024x512 .f32) (x3 : FVec Ideal Cert.Pre_finite_inputs.S1024 .f32)
    (h : Cert.Pre_finite_inputs.fn (F := Ideal) x0 x1 x2 x3 = fun _ => 1#1) :
    RealValued x0 ∧ RealValued x1 ∧ RealValued x2 := by
  have h0 := congrFun h ix0
  dsimp only [Cert.Pre_finite_inputs.fn, Cert.Pre_finite_inputs.fn_part1, andi] at h0
  obtain ⟨h012, -⟩ := IntOp.andi_eq_one.1 h0
  obtain ⟨h01, e2⟩ := IntOp.andi_eq_one.1 h012
  obtain ⟨e0, e1⟩ := IntOp.andi_eq_one.1 h01
  exact ⟨realValued_of_all x0 _ _ _ _ e0, realValued_of_all x1 _ _ _ _ e1, realValued_of_all x2 _ _ _ _ e2⟩

end Cert.Joiner

end
-- ==== Proof.ReferenceValue.lean ====
/-
  The reference, read index by index on the extended reals, is the joined form of the joiner:
  at (b, t, u, v) the encoder row (b, t) and the predictor row (b, u) are added entry by entry (the two broadcasts put
  each row at every (t, u) pair), the sum is contracted with weight row v over the 512 features, and bias[v] is added.
-/
import proofs.«121685_j43542378446962_2_alg».proof.Proof.Gen.ReferenceIdeal.Read
import proofs.«121685_j43542378446962_2_alg».proof.Proof.JoinerSpec

noncomputable section

namespace Cert.Joiner

open Idealize.ShloMosaic Idealize.ShloMosaic.ValueIdx
open Cert.ReferenceIdeal Cert.ReferenceIdeal.Read

/-- The reference's last stage is the joined form of its four arguments. -/
theorem reference_eq_joined (x0 : (⟨S8x200x512, .f32⟩ : BufTy).Contents (Elt Ideal)) (x1 : (⟨S8x50x512, .f32⟩ : BufTy).Contents (Elt Ideal))
    (x2 : (⟨S1024x512, .f32⟩ : BufTy).Contents (Elt Ideal)) (x3 : (⟨S1024, .f32⟩ : BufTy).Contents (Elt Ideal)) :
    val_main_v8 (F := Ideal) x0 x1 x2 x3 = joined x0 x1 x2 x3 := by
  funext i
  obtain ⟨b, t, u, v, rfl⟩ : ∃ (b : Fin 8) (t : Fin 200) (u : Fin 50) (v : Fin 1024), i = ix4 b t u v :=
    ⟨i 0, i 1, i 2, i 3, eq_ix4 i⟩
  rw [val_main_v8_apply, val_main_v5_apply, val_main_v7_apply, val_main_v6_apply]
  show _ + _ = (∑ k : Fin 512, (x0 (ix3 b t k) + x1 (ix3 b u k)) * x2 (ix2 v k)) + x3 (ix1 v)
  refine congrArg₂ (· + ·) (Finset.sum_congr rfl fun k _ => ?_) ?_
  · rw [val_main_v4_apply, val_main_v2_apply, val_main_v3_apply, val_main_v0_apply, val_main_v1_apply]
    have e0 : idx_main_v0 (idx_main_v2 (lidx_main_v5 (ix4 b t u v) k)) = ix3 b t k :=
      funext fun a => Fin.ext (by match a with | ⟨0, _⟩ => rfl | ⟨1, _⟩ => rfl | ⟨2, _⟩ => rfl)
    have e1 : idx_main_v1 (idx_main_v3 (lidx_main_v5 (ix4 b t u v) k)) = ix3 b u k :=
      funext fun a => Fin.ext (by match a with | ⟨0, _⟩ => rfl | ⟨1, _⟩ => rfl | ⟨2, _⟩ => rfl)
    have e2 : ridx_main_v5 (ix4 b t u v) k = ix2 v k :=
      funext fun a => Fin.ext (by match a with | ⟨0, _⟩ => rfl | ⟨1, _⟩ => rfl)
    rw [e0, e1, e2]
    rfl
  · exact congrArg x3 (funext fun a => Fin.ext (by match a with | ⟨0, _⟩ => rfl))

end Cert.Joiner

end
-- ==== Proof.LibUnitAxisLayout.lean ====
/-
  Three layout operations read at an index given by coordinates, for shapes with a unit axis in the middle or in front:
  the shape cast that inserts a middle unit axis, [a, c] → [a, 1, c]; the broadcast along that middle unit axis,
  [a, 1, c] → [a, b, c]; and the broadcast along a leading unit axis, [1, b, c] → [a, b, c]. Each is the operand read at
  the index with the unit coordinate forgotten (the cast) or set to 0 (the broadcasts).
-/
import Idealize.ShloMosaic.Lib.Pipeline.Value
import Idealize.ShloMosaic.Lib.ValueIdx

namespace Cert.Lib.UnitAxis

open Idealize.ShloMosaic Idealize.ShloMosaic.ValueIdx

variable {α : Type}

/-- An `[a, c]` array cast to `[a, 1, c]` reads, at `(i, o, j)`, the operand at `(i, j)`, whatever the unit coordinate `o`:
    the two indices have the same row-major position `i · c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (o : Fin 1) (j : Fin c) :
    shapeCast ⟨3, ![a, 1, c]⟩ x h (ix3 i o j) = x (ix2 i j) :=
  shapeCast_apply x h _ _ (by
    have ho : o.val = 0 := by omega
    rw [Shape.rowMajor_val_three, Shape.rowMajor_val_two]
    show i.val * c + j.val = (i.val * 1 + o.val) * c + j.val
    rw [ho, Nat.mul_one, Nat.add_zero])

/-- An `[a, 1, c]` array broadcast to `[a, b, c]` reads, at `(i, p, j)`, the operand at `(i, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (p : Fin b) (j : Fin c) :
    broadcastTo ⟨3, ![a, b, c]⟩ x h (ix3 i p j) = x (ix3 i (0 : Fin 1) j) := by
  refine broadcastTo_apply x h (ix3 i p j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, p, j)`, the operand at `(0, p, j)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (p : Fin b) (j : Fin c) :
    broadcastTo ⟨3, ![a, b, c]⟩ x h (ix3 i p j) = x (ix3 (0 : Fin 1) p j) := by
  refine broadcastTo_apply x h (ix3 i p j) (ix3 (0 : Fin 1) p j) fun ax => ?_
  match ax with
  | ⟨0, _⟩ => rfl
  | ⟨1, _⟩ =>
    show p.val = if b = 1 then 0 else p.val
    split
    · have := p.isLt; omega
    · rfl
  | ⟨2, _⟩ =>
    show j.val = if c = 1 then 0 else j.val
    split
    · have := j.isLt; omega
    · rfl

end Cert.Lib.UnitAxis
-- ==== Proof.BodyValue.lean ====
/-
  What one run of the kernel body stores, read index by index on the extended reals.

  The body loads an encoder block [1, 40, 512], a predictor block [1, 50, 512], the weight [1024, 512] and the bias
  [1024]; multiplies the encoder rows and the predictor rows by the transposed weight (two matrix products into a zero
  accumulator, each a plain sum over the 512 features); adds the bias to the predictor's product; and stores, at
  (r, u, v) of the [1, 40, 50, 1024] block, encoder row r's product plus predictor row u's product-with-bias (the two
  broadcasts repeat each product along the other's row axis).
-/
import proofs.«121685_j43542378446962_2_alg».proof.Proof.Gen.KernelIdeal.Skeleton
import proofs.«121685_j43542378446962_2_alg».proof.Proof.LibUnitAxisLayout
import proofs.«121685_j43542378446962_2_alg».proof.Proof.JoinerSpec
import Idealize.ShloMosaic.Lib.ValueLayout
import Idealize.ShloMosaic.PureOps.Ideal.Laws

noncomputable section

namespace Cert.Joiner

open Idealize.ShloMosaic Idealize.ShloMosaic.ValueIdx
open Cert.KernelIdeal Cert.KernelIdeal.Gen Cert.Lib.UnitAxis

/-! The two matrix products contract axis 1 of both operands: at output index (row, v) and feature k the left operand is
read at (row, k) and the right at (v, k). The non-contracted coordinates first, one lemma per operand and product. -/

theorem encRows_lhs0 (i : S40x1024.Idx) (q : dot_S40x512_S1024x512_S40x1024_1_1_0_0_n_n.contr.Idx) : (dot_S40x512_S1024x512_S40x1024_1_1_0_0_n_n.lhsIdx i q 0).val = (i 0).val := by
  unfold DotDims.lhsIdx
  rw [dif_neg (show ¬(0 : Fin S40x512.rank) ∈ dot_S40x512_S1024x512_S40x1024_1_1_0_0_n_n.lhsBatch by decide), dif_pos (show (0 : Fin S40x512.rank) ∈ dot_S40x512_S1024x512_S40x1024_1_1_0_0_n_n.lhsNonContracting by decide)]
  rfl
theorem encRows_rhs0 (i : S40x1024.Idx) (q : dot_S40x512_S1024x512_S40x1024_1_1_0_0_n_n.contr.Idx) : (dot_S40x512_S1024x512_S40x1024_1_1_0_0_n_n.rhsIdx i q 0).val = (i 1).val := by
  unfold DotDims.rhsIdx
  rw [dif_neg (show ¬(0 : Fin S1024x512.rank) ∈ dot_S40x512_S1024x512_S40x1024_1_1_0_0_n_n.rhsBatch by decide), dif_pos (show (0 : Fin S1024x512.rank) ∈ dot_S40x512_S1024x512_S40x1024_1_1_0_0_n_n.rhsNonContracting by decide)]
  rfl

theorem predRows_lhs0 (i : S50x1024.Idx) (q : dot_S50x512_S1024x512_S50x1024_1_1_0_0_n_n.contr.Idx) : (dot_S50x512_S1024x512_S50x1024_1_1_0_0_n_n.lhsIdx i q 0).val = (i 0).val := by
  unfold DotDims.lhsIdx
  rw [dif_neg (show ¬(0 : Fin S50x512.rank) ∈ dot_S50x512_S1024x512_S50x1024_1_1_0_0_n_n.lhsBatch by decide), dif_pos (show (0 : Fin S50x512.rank) ∈ dot_S50x512_S1024x512_S50x1024_1_1_0_0_n_n.lhsNonContracting by decide)]
  rfl
theorem predRows_rhs0 (i : S50x1024.Idx) (q : dot_S50x512_S1024x512_S50x1024_1_1_0_0_n_n.contr.Idx) : (dot_S50x512_S1024x512_S50x1024_1_1_0_0_n_n.rhsIdx i q 0).val = (i 1).val := by
  unfold DotDims.rhsIdx
  rw [dif_neg (show ¬(0 : Fin S1024x512.rank) ∈ dot_S50x512_S1024x512_S50x1024_1_1_0_0_n_n.rhsBatch by decide), dif_pos (show (0 : Fin S1024x512.rank) ∈ dot_S50x512_S1024x512_S50x1024_1_1_0_0_n_n.rhsNonContracting by decide)]
  rfl

/-- The 40 encoder rows times the transposed weight, into zero: entry (r, v) is the sum over the features of
    row r of the left operand times row v of the right. -/
theorem encRows_matmul_apply (x : FVec Ideal S40x512 .bf16) (w : FVec Ideal S1024x512 .bf16) (r : Fin 40) (v : Fin 1024) :
    matmul dot_S40x512_S1024x512_S40x1024_1_1_0_0_n_n none x w (constant S40x1024 .f32 0x00000000#32) (ix2 r v)
      = ∑ k : Fin 512, x (ix2 r k) * w (ix2 v k) := by
  simp only [matmul]
  rw [Ideal.matmul_constant_zero_apply, ← Equiv.sum_comp (contrEquiv1 dot_S40x512_S1024x512_S40x1024_1_1_0_0_n_n 512 rfl rfl).symm]
  refine Finset.sum_congr rfl fun k _ => ?_
  have hk := contrEquiv1_symm_val dot_S40x512_S1024x512_S40x1024_1_1_0_0_n_n 512 rfl rfl k
  have el : dot_S40x512_S1024x512_S40x1024_1_1_0_0_n_n.lhsIdx (ix2 r v) ((contrEquiv1 dot_S40x512_S1024x512_S40x1024_1_1_0_0_n_n 512 rfl rfl).symm k) = ix2 r k :=
    funext fun a => Fin.ext (by
      match a with
      | ⟨0, _⟩ => exact encRows_lhs0 _ _
      | ⟨1, _⟩ => exact (dot_S40x512_S1024x512_S40x1024_1_1_0_0_n_n.lhsIdx_val_of_single rfl _ _).trans hk)
  have er : dot_S40x512_S1024x512_S40x1024_1_1_0_0_n_n.rhsIdx (ix2 r v) ((contrEquiv1 dot_S40x512_S1024x512_S40x1024_1_1_0_0_n_n 512 rfl rfl).symm k) = ix2 v k :=
    funext fun a => Fin.ext (by
      match a with
      | ⟨0, _⟩ => exact encRows_rhs0 _ _
      | ⟨1, _⟩ => exact (dot_S40x512_S1024x512_S40x1024_1_1_0_0_n_n.rhsIdx_val_of_single rfl _ _).trans hk)
  rw [el, er]

/-- The 50 predictor rows times the transposed weight, into zero, likewise. -/
theorem predRows_matmul_apply (x : FVec Ideal S50x512 .bf16) (w : FVec Ideal S1024x512 .bf16) (u : Fin 50) (v : Fin 1024) :
    matmul dot_S50x512_S1024x512_S50x1024_1_1_0_0_n_n none x w (constant S50x1024 .f32 0x00000000#32) (ix2 u v)
      = ∑ k : Fin 512, x (ix2 u k) * w (ix2 v k) := by
  simp only [matmul]
  rw [Ideal.matmul_constant_zero_apply, ← Equiv.sum_comp (contrEquiv1 dot_S50x512_S1024x512_S50x1024_1_1_0_0_n_n 512 rfl rfl).symm]
  refine Finset.sum_congr rfl fun k _ => ?_
  have hk := contrEquiv1_symm_val dot_S50x512_S1024x512_S50x1024_1_1_0_0_n_n 512 rfl rfl k
  have el : dot_S50x512_S1024x512_S50x1024_1_1_0_0_n_n.lhsIdx (ix2 u v) ((contrEquiv1 dot_S50x512_S1024x512_S50x1024_1_1_0_0_n_n 512 rfl rfl).symm k) = ix2 u k :=
    funext fun a => Fin.ext (by
      match a with
      | ⟨0, _⟩ => exact predRows_lhs0 _ _
      | ⟨1, _⟩ => exact (dot_S50x512_S1024x512_S50x1024_1_1_0_0_n_n.lhsIdx_val_of_single rfl _ _).trans hk)
  have er : dot_S50x512_S1024x512_S50x1024_1_1_0_0_n_n.rhsIdx (ix2 u v) ((contrEquiv1 dot_S50x512_S1024x512_S50x1024_1_1_0_0_n_n 512 rfl rfl).symm k) = ix2 v k :=
    funext fun a => Fin.ext (by
      match a with
      | ⟨0, _⟩ => exact predRows_rhs0 _ _
      | ⟨1, _⟩ => exact (dot_S50x512_S1024x512_S50x1024_1_1_0_0_n_n.rhsIdx_val_of_single rfl _ _).trans hk)
  rw [el, er]

/-- The stored block at (o, r, u, v): encoder row r projected on weight row v, plus predictor row u projected on
    weight row v with the bias. -/
theorem body_apply (x0 : FVec Ideal S1x40x512 .bf16) (x1 : FVec Ideal S1x50x512 .bf16) (x2 : FVec Ideal S1024x512 .bf16)
    (x3 : FVec Ideal S1024 .f32) (o : Fin 1) (r : Fin 40) (u : Fin 50) (v : Fin 1024) :
    k0_pay1 (F := Ideal) x0 x1 x2 x3 (ix4 o r u v)
      = (∑ k : Fin 512, x0 (ix3 (0 : Fin 1) r k) * x2 (ix2 v k))
        + ((∑ k : Fin 512, x1 (ix3 (0 : Fin 1) u k) * x2 (ix2 v k)) + x3 (ix1 v)) := by
  unfold k0_pay1
  refine (shapeCast_abc_1abc_apply _ _ o r u v).trans ?_
  refine (addf_apply _ _ _).trans ?_
  refine congrArg₂ (· + ·) ?_ ?_
  · refine (broadcastTo_a1c_abc_apply _ _ r u v).trans ?_
    refine (shapeCast_ac_a1c_apply _ _ r (0 : Fin 1) v).trans ?_
    refine (encRows_matmul_apply _ _ r v).trans ?_
    refine Finset.sum_congr rfl fun k _ => ?_
    exact congrArg₂ (· * ·) (shapeCast_1ab_ab_apply _ _ r k) (congrFun (shapeCast_self _ _) _)
  · refine (broadcastTo_1bc_abc_apply _ _ r u v).trans ?_
    refine (shapeCast_ab_1ab_apply _ _ (0 : Fin 1) u v).trans ?_
    refine (addf_apply _ _ _).trans ?_
    refine congrArg₂ (· + ·) ?_ ?_
    · refine (predRows_matmul_apply _ _ u v).trans ?_
      refine Finset.sum_congr rfl fun k _ => ?_
      exact congrArg₂ (· * ·) (shapeCast_1ab_ab_apply _ _ u k) (congrFun (shapeCast_self _ _) _)
    · refine (broadcastTo_1b_ab_apply _ _ u v).trans ?_
      exact shapeCast_a_1a_apply _ _ (0 : Fin 1) v

/-- So when the four loaded blocks are the rows (b, tt) of the encoder, (b, u) of the predictor, the whole weight and
    the whole bias, the stored block's entry (o, r, u, v) is the projected form of the joiner at (b, tt, u, v). -/
theorem body_eq_projectedAt (enc : (⟨3, ![8, 200, 512]⟩ : Shape).Idx → EReal) (pred : (⟨3, ![8, 50, 512]⟩ : Shape).Idx → EReal)
    (W : (⟨2, ![1024, 512]⟩ : Shape).Idx → EReal) (bias : (⟨1, ![1024]⟩ : Shape).Idx → EReal)
    (x0 : FVec Ideal S1x40x512 .bf16) (x1 : FVec Ideal S1x50x512 .bf16) (x2 : FVec Ideal S1024x512 .bf16)
    (x3 : FVec Ideal S1024 .f32) (b : Fin 8) (tt : Fin 200) (o : Fin 1) (r : Fin 40) (u : Fin 50) (v : Fin 1024)
    (h0 : ∀ k : Fin 512, x0 (ix3 (0 : Fin 1) r k) = enc (ix3 b tt k))
    (h1 : ∀ k : Fin 512, x1 (ix3 (0 : Fin 1) u k) = pred (ix3 b u k))
    (h2 : ∀ k : Fin 512, x2 (ix2 v k) = W (ix2 v k))
    (h3 : x3 (ix1 v) = bias (ix1 v)) :
    k0_pay1 (F := Ideal) x0 x1 x2 x3 (ix4 o r u v) = projectedAt enc pred W bias b tt u v := by
  rw [body_apply]
  unfold projectedAt encProj predProj
  simp only [h0, h1, h2, h3]

end Cert.Joiner

end
-- ==== Proof.ArrayValue.lean ====
/-
  From the blocks to the whole array: after the run the kernel's result array is the projected form of the joiner.

  The grid has 8 × 5 points; at point (b, ti) the output window's block is rows 40·ti … 40·ti + 39 of batch b (all 50
  predictor positions, all 1024 outputs), the encoder window's block the same 40 rows of batch b, the predictor window's
  block all 50 rows of batch b, and the weight and the bias are whole. The three arrays the matrix unit reads are the
  arguments converted to bf16 before the region, which on the extended reals changes nothing. So what point (b, ti)
  writes back is its block of the projected form, and the 40 blocks tile the array: row t of batch b lies in the
  block of point (b, t / 40).
-/
import proofs.«121685_j43542378446962_2_alg».proof.Proof.Gen.KernelIdeal.Value
import proofs.«121685_j43542378446962_2_alg».proof.Proof.BodyValue
import proofs.«121685_j43542378446962_2_alg».proof.Proof.JoinerSpec
import Idealize.ShloMosaic.Lib.Pipeline.Value
import Idealize.ShloMosaic.Lib.StableHlo.Run
import Idealize.ShloMosaic.Lib.Tactic

noncomputable section

namespace Cert.Joiner

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The result: the projected form of the four argument arrays as launched. -/
abbrev result (c : Dev nD) : S8x200x50x1024.Idx → EReal :=
  projected (m ((c : Thread nD τ).loc main_arg0)) (m ((c : Thread nD τ).loc main_arg1))
    (m ((c : Thread nD τ).loc main_arg2)) (m ((c : Thread nD τ).loc main_arg3))

/-! ## The arrays the region finds: the conversions to bf16 are the identity on the extended reals -/

theorem V_enc (c : Dev nD) : (V m c main_v0 : S8x200x512.Idx → EReal) = m ((c : Thread nD τ).loc main_arg0) := by
  dsimp only [Gen.V, Gen.hostOps0]; after_results; rfl
theorem V_pred (c : Dev nD) : (V m c main_v1 : S8x50x512.Idx → EReal) = m ((c : Thread nD τ).loc main_arg1) := by
  dsimp only [Gen.V, Gen.hostOps0]; after_results; rfl
theorem V_weight (c : Dev nD) : (V m c main_v2 : S1024x512.Idx → EReal) = m ((c : Thread nD τ).loc main_arg2) := by
  dsimp only [Gen.V, Gen.hostOps0]; after_results; rfl

/-! ## The printed index maps over the grid -/

/-- The encoder's block moves with the output's on the batch and row axes; the predictor's with the batch axis only;
    the weight and the bias stay; the output's block indices are (b, ti, 0, 0) with b < 8 and ti < 5. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 4) ≤ 7 ∧ win0_4.index t (1 : Fin 4) ≤ 4
    ∧ win0_4.index t (2 : Fin 4) = 0 ∧ win0_4.index t (3 : Fin 4) = 0 :=
  (by decide +kernel : ∀ t : Fin grid0.N, _)

/-- Every (batch, row-block) pair is some point's. -/
theorem idx_onto : ∀ (q0 : Fin 8) (q1 : Fin 5), ∃ t : Fin cfg0.N, win0_4.index t = ![q0.val, q1.val, 0, 0] :=
  (by decide +kernel : ∀ (q0 : Fin 8) (q1 : Fin 5), ∃ t : Fin grid0.N, win0_4.index t = ![q0.val, q1.val, 0, 0])

/-! ## What each point writes back -/

/-- WHAT POINT `t` WRITES BACK is block `t` of the result: at (o, r, u, v) of the block the array index is
    (b, 40·ti + r, u, v), the encoder block's row r is the encoder's row (b, 40·ti + r), the predictor block's row u the
    predictor's row (b, u), and the weight and bias blocks are the whole arrays. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zeros4]
  simp only [View.ld_unit_zero (S := S1x40x512) zeros3, View.ld_unit_zero (S := S1x50x512) zeros3,
    View.ld_unit_zero (S := S1024x512) zeros2, View.ld_unit_zero (S := S1024) zeros1]
  obtain ⟨e00, e01, e02, e10, e11, e12, e20, e21, e30, b40, b41, e42, e43⟩ := idx_facts t
  funext j
  obtain ⟨o, r, u, v, rfl⟩ : ∃ (o : Fin 1) (r : Fin 40) (u : Fin 50) (v : Fin 1024), j = ix4 o r u v :=
    ⟨j 0, j 1, j 2, j 3, eq_ix4 j⟩
  have ho := o.isLt
  have hr := r.isLt
  have he : ((cfg0.win 4).blk t).view.emb (ix4 o r u v)
      = ix4 (⟨win0_4.index t (0 : Fin 4), by omega⟩ : Fin 8) (⟨win0_4.index t (1 : Fin 4) * 40 + r.val, by omega⟩ : Fin 200) u v := by
    funext a; apply Fin.ext
    match a with
    | ⟨0, _⟩ => show win0_4.index t (0 : Fin 4) * 1 + 1 * o.val = win0_4.index t (0 : Fin 4); omega
    | ⟨1, _⟩ => show win0_4.index t (1 : Fin 4) * 40 + 1 * r.val = win0_4.index t (1 : Fin 4) * 40 + r.val; omega
    | ⟨2, _⟩ => show win0_4.index t (2 : Fin 4) * 50 + 1 * u.val = u.val; omega
    | ⟨3, _⟩ => show win0_4.index t (3 : Fin 4) * 1024 + 1 * v.val = v.val; omega
  show k0_pay1 (F := Ideal) (iblk m c 0 t) (iblk m c 1 t) (iblk m c 2 t) (iblk m c 3 t) (ix4 o r u v)
    = result m c (((cfg0.win 4).blk t).view.emb (ix4 o r u v))
  rw [he]
  refine body_eq_projectedAt _ _ _ _ _ _ _ _ _ _ o r u v ?_ ?_ ?_ ?_
  · intro k
    show V m c main_v0 (((cfg0.win 0).blk t).view.emb (ix3 (0 : Fin 1) r k)) = _
    rw [V_enc]
    refine congrArg _ (funext fun a => Fin.ext ?_)
    match a with
    | ⟨0, _⟩ => show win0_0.index t (0 : Fin 3) * 1 + 1 * 0 = win0_4.index t (0 : Fin 4); omega
    | ⟨1, _⟩ => show win0_0.index t (1 : Fin 3) * 40 + 1 * r.val = win0_4.index t (1 : Fin 4) * 40 + r.val; omega
    | ⟨2, _⟩ => show win0_0.index t (2 : Fin 3) * 512 + 1 * k.val = k.val; omega
  · intro k
    show V m c main_v1 (((cfg0.win 1).blk t).view.emb (ix3 (0 : Fin 1) u k)) = _
    rw [V_pred]
    refine congrArg _ (funext fun a => Fin.ext ?_)
    match a with
    | ⟨0, _⟩ => show win0_1.index t (0 : Fin 3) * 1 + 1 * 0 = win0_4.index t (0 : Fin 4); omega
    | ⟨1, _⟩ => show win0_1.index t (1 : Fin 3) * 50 + 1 * u.val = u.val; omega
    | ⟨2, _⟩ => show win0_1.index t (2 : Fin 3) * 512 + 1 * k.val = k.val; omega
  · intro k
    show V m c main_v2 (((cfg0.win 2).blk t).view.emb (ix2 v k)) = _
    rw [V_weight]
    refine congrArg _ (funext fun a => Fin.ext ?_)
    match a with
    | ⟨0, _⟩ => show win0_2.index t (0 : Fin 2) * 1024 + 1 * v.val = v.val; omega
    | ⟨1, _⟩ => show win0_2.index t (1 : Fin 2) * 512 + 1 * k.val = k.val; omega
  · show V m c main_arg3 (((cfg0.win 3).blk t).view.emb (ix1 v)) = _
    rw [V_main_arg3]
    refine congrArg _ (funext fun a => Fin.ext ?_)
    match a with
    | ⟨0, _⟩ => show win0_3.index t (0 : Fin 1) * 1024 + 1 * v.val = v.val; omega

/-! ## The blocks tile the array -/

/-- An index of the array is in point `t`'s block iff each coordinate is in the block's range on its axis. -/
theorem mem_blk (t : Fin cfg0.N) (i : S8x200x50x1024.Idx) :
    i ∈ ((cfg0.win 4).blk t).view.set ↔ ∀ a : Fin 4, win0_4.index t a * S1x40x50x1024.size a ≤ (i a).val
      ∧ (i a).val < win0_4.index t a * S1x40x50x1024.size a + S1x40x50x1024.size a := by
  show i ∈ ((View.whole main_v3).slice (win0_4.rect t)).set ↔ _
  rw [View.set_slice_whole, Rect.mem_set_unit]
  exact Iff.rfl

/-- Every index (b, t, u, v) of the array lies in the block of the point with block indices (b, t / 40, 0, 0). -/
theorem cover (i : S8x200x50x1024.Idx) :
    ∃ t : Fin cfg0.N, (cfg0.win 4).flush t = true ∧ i ∈ ((cfg0.win 4).blk t).view.set := by
  have hi0 : (i 0).val < 8 := (i 0).isLt
  have hi1 : (i 1).val < 200 := (i 1).isLt
  have hi2 : (i 2).val < 50 := (i 2).isLt
  have hi3 : (i 3).val < 1024 := (i 3).isLt
  obtain ⟨t, ht⟩ := idx_onto ⟨(i 0).val, hi0⟩ ⟨(i 1).val / 40, by omega⟩
  have q0 : win0_4.index t (0 : Fin 4) = (i 0).val := congrFun ht 0
  have q1 : win0_4.index t (1 : Fin 4) = (i 1).val / 40 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 40 ≤ (i 1).val ∧ (i 1).val < win0_4.index t (1 : Fin 4) * 40 + 40; omega
  | ⟨2, _⟩ => show win0_4.index t (2 : Fin 4) * 50 ≤ (i 2).val ∧ (i 2).val < win0_4.index t (2 : Fin 4) * 50 + 50; omega
  | ⟨3, _⟩ => show win0_4.index t (3 : Fin 4) * 1024 ≤ (i 3).val ∧ (i 3).val < win0_4.index t (3 : Fin 4) * 1024 + 1024; omega

/-- THE ARRAY after the run is the projected form of the argument arrays. -/
theorem final (c : Dev nD) : (dats m 0 c).arrAt 4 cfg0.N = result m c :=
  (dats m 0 c).arrAt_eq_of_cover 4 (result m c) (fun t _ => flushed_eq m c t) cover

/-! ## The run, read -/

/-- Every weakly fair execution of the kernel's program ends with the result array at the projected form of the
    arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Joiner

end
-- ==== Proof.lean ====
/-
  The joiner kernel against its reference, on the extended reals.

  The reference adds an encoder row and a predictor row, contracts the sum with a weight row and adds the bias:
    out[b, t, u, v] = (∑ d, (enc[b,t,d] + pred[b,u,d]) · W[v,d]) + bias[v].
  The kernel projects the encoder rows and the predictor rows separately (two matrix products per grid point), adds the
  bias to the predictor's projection once, and adds the two projections for every (t, u) pair:
    out[b, t, u, v] = (∑ d, enc[b,t,d] · W[v,d]) + ((∑ d, pred[b,u,d] · W[v,d]) + bias[v]).
  A linear map of a sum is the sum of its values — for REAL entries, which is what the precondition gives (every input
  is finite); with an infinite entry the product need not distribute over the sum. The conversions to bf16 in front of
  the matrix products change nothing on the extended reals, and neither does the tiling of the rows into 8 × 5 blocks.

  The modules: `JoinerSpec` (the two forms and the law between them), `FiniteInputs` (the precondition gives real
  entries), `ReferenceValue` (the reference is the joined form), `BodyValue` (one run of the body stores the projected form
  of its blocks), `ArrayValue` (the blocks tile the array: the kernel's result is the projected form), and here the claims.
-/
import proofs.«121685_j43542378446962_2_alg».proof.Defs
import proofs.«121685_j43542378446962_2_alg».proof.Proof.Gen.Kernel
import proofs.«121685_j43542378446962_2_alg».proof.Proof.Gen.Kernel.Skeleton
import proofs.«121685_j43542378446962_2_alg».proof.Proof.Gen.Kernel.Launch
import proofs.«121685_j43542378446962_2_alg».proof.Proof.Gen.Kernel.Points
import proofs.«121685_j43542378446962_2_alg».proof.Proof.Gen.Kernel.Frame
import proofs.«121685_j43542378446962_2_alg».proof.Proof.Gen.KernelIdeal
import proofs.«121685_j43542378446962_2_alg».proof.Proof.Gen.KernelIdeal.Skeleton
import proofs.«121685_j43542378446962_2_alg».proof.Proof.Gen.KernelIdeal.Launch
import proofs.«121685_j43542378446962_2_alg».proof.Proof.Gen.KernelIdeal.Points
import proofs.«121685_j43542378446962_2_alg».proof.Proof.Gen.KernelIdeal.Frame
import proofs.«121685_j43542378446962_2_alg».proof.Proof.Gen.ReferenceIdeal
import proofs.«121685_j43542378446962_2_alg».proof.Proof.Gen.Pre_finite_inputs
import proofs.«121685_j43542378446962_2_alg».proof.Proof.Gen.KernelIdeal.Value
import proofs.«121685_j43542378446962_2_alg».proof.Proof.Gen.ReferenceIdeal.Run
import proofs.«121685_j43542378446962_2_alg».proof.Proof.Gen.ReferenceIdeal.Read
import proofs.«121685_j43542378446962_2_alg».proof.Proof.JoinerSpec
import proofs.«121685_j43542378446962_2_alg».proof.Proof.FiniteInputs
import proofs.«121685_j43542378446962_2_alg».proof.Proof.ReferenceValue
import proofs.«121685_j43542378446962_2_alg».proof.Proof.ArrayValue
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the four arguments, the kernel's result array ends at the projected form and the
    reference's at the joined form of the same real-valued arrays: one function. -/
theorem algebraic : Cert.algebraic_KernelIdeal_ReferenceIdeal := by
  intro m ρ m' ρ' hpre hagree
  refine ⟨fun c => Cert.Joiner.result m c, Cert.Joiner.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Joiner.reference_eq_joined,
    (hagree c).1, (hagree c).2.1, (hagree c).2.2.1, (hagree c).2.2.2]
  obtain ⟨h0, h1, h2⟩ := Cert.Joiner.real_of_pre _ _ _ _ (hpre c)
  exact Cert.Joiner.joined_eq_projected _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
